-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S64x256x56x56 .f32) (main_arg1 : FVec F S256 .f32) (main_arg2 : FVec F S256 .f32) (main_arg3 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S64x256x56x56 : Shape := ⟨4, ![64, 256, 56, 56]⟩
abbrev S256 : Shape := ⟨1, ![256]⟩
abbrev S64x56x56x256 : Shape := ⟨4, ![64, 56, 56, 256]⟩
abbrev S1x256 : Shape := ⟨2, ![1, 256]⟩
abbrev S2x56x56x256 : Shape := ⟨4, ![2, 56, 56, 256]⟩
abbrev S2x256 : Shape := ⟨2, ![2, 256]⟩
abbrev S2 : Shape := ⟨1, ![2]⟩
abbrev S2x1 : Shape := ⟨2, ![2, 1]⟩
abbrev S2x1x1x256 : Shape := ⟨4, ![2, 1, 1, 256]⟩

abbrev nBuf : Space → Nat
  | .hbm => 10
  | .vmem => 7
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S64x56x56x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S64x56x56x256, .f32⟩
  | .hbm, ⟨9, _⟩ => ⟨S64x256x56x56, .f32⟩
  | .local _ .vmem, ⟨0, _⟩ => ⟨S2x56x56x256, .f32⟩
  | .local _ .vmem, ⟨1, _⟩ => ⟨S2x56x56x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S2x56x56x256, .f32⟩
  | .local _ .vmem, ⟨6, _⟩ => ⟨S2x56x56x256, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x56x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x56x56x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x256x56x56_S64x56x56x256_0_2_3_1 : S64x256x56x56.Transposes [0, 2, 3, 1] S64x56x56x256
  shapeCasts_S256_S1x256 : S256.ShapeCasts S1x256
  inb_S2x56x56x256_S2x56x56x256_0_0_0_0 : ∀ a, (![0, 0, 0, 0] : Fin 4 → Nat) a + S2x56x56x256.size a ≤ S2x56x56x256.size a
  h_S2x56x56x256 : 0 < S2x56x56x256.numel
  shapeCasts_S2x56x56x256_S2x56x56x256 : S2x56x56x256.ShapeCasts S2x56x56x256
  reduces_S2x56x56x256_S2x256 : S2x56x56x256.Reduces [1, 2] S2x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2x256 : S1x256.Broadcasts S2x256
  reduces_S2x256_S2 : S2x256.Reduces [1] S2
  shapeCasts_S2_S2x1 : S2.ShapeCasts S2x1
  broadcasts_S2x1_S2x256 : S2x1.Broadcasts S2x256
  shapeCasts_S2x256_S2x1x1x256 : S2x256.ShapeCasts S2x1x1x256
  broadcasts_S2x1x1x256_S2x56x56x256 : S2x1x1x256.Broadcasts S2x56x56x256
  transposes_S64x56x56x256_S64x256x56x56_0_3_1_2 : S64x56x56x256.Transposes [0, 3, 1, 2] S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x56x56x256.size a ≤ S64x56x56x256.size a
  hwx0_0 : ∀ i : grid0.Coords, EltTy.bits .f32 = 32 ∨ (Rect.block (s := S64x56x56x256) S2x56x56x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x56x56x256.size a ≤ S64x56x56x256.size a
  hwx0_4 : ∀ i : grid0.Coords, EltTy.bits .f32 = 32 ∨ (Rect.block (s := S64x56x56x256) S2x56x56x256.size (cc0_transform_4 i) (hinb0_4 i)).WholeWords (EltTy.packing .f32)

variable [Facts₀]

abbrev win0_0 : Pipeline.Window sig grid0 :=
  Pipeline.Window.ofSpec (Memref.whole main_v0) S2x56x56x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x56x56x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S_ : Shape := ⟨0, ![]⟩
abbrev S64x256 : Shape := ⟨2, ![64, 256]⟩
abbrev S1x256 : Shape := ⟨2, ![1, 256]⟩
abbrev S64 : Shape := ⟨1, ![64]⟩
abbrev S64x1 : Shape := ⟨2, ![64, 1]⟩
abbrev S64x256x1x1 : Shape := ⟨4, ![64, 256, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S64x256x56x56, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S64x256, .f32⟩
  | .hbm, ⟨11, _⟩ => ⟨S1x256, .f32⟩
  | .hbm, ⟨12, _⟩ => ⟨S64x256, .f32⟩
  | .hbm, ⟨13, _⟩ => ⟨S64x256, .f32⟩
  | .hbm, ⟨14, _⟩ => ⟨S64x256, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x256, .f32⟩
  | .hbm, ⟨25, _⟩ => ⟨S64x256, .f32⟩
  | .hbm, ⟨26, _⟩ => ⟨S64x256, .f32⟩
  | .hbm, ⟨27, _⟩ => ⟨S64x1, .f32⟩
  | .hbm, ⟨28, _⟩ => ⟨S64x256, .f32⟩
  | .hbm, ⟨29, _⟩ => ⟨S64x256, .f32⟩
  | .hbm, ⟨30, _⟩ => ⟨S1x256, .f32⟩
  | .hbm, ⟨31, _⟩ => ⟨S64x256, .f32⟩
  | .hbm, ⟨32, _⟩ => ⟨S64x256, .f32⟩
  | .hbm, ⟨33, _⟩ => ⟨S64x256, .f32⟩
  | .hbm, ⟨34, _⟩ => ⟨S_, .f32⟩
  | .hbm, ⟨35, _⟩ => ⟨S64x256, .f32⟩
  | .hbm, ⟨36, _⟩ => ⟨S64x256, .f32⟩
  | .hbm, ⟨37, _⟩ => ⟨S64x256x1x1, .f32⟩
  | .hbm, ⟨38, _⟩ => ⟨S64x256x56x56, .f32⟩
  | .hbm, ⟨39, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S64x256x56x56_S64x256_d2_3 : S64x256x56x56.ReducesTo [2, 3] S64x256
  h_S_ : 0 < S_.numel
  bcast_S_S64x256 : S_.BroadcastsInDim S64x256 (![] : Fin 0 → Fin S64x256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  reducesTo_S64x256_S64_d1 : S64x256.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)

variable [Facts₀]

class Facts : Prop extends Facts₀ where

variable [Facts]
-- ==== Proof.Spec.lean ====
/-
  The gated channel transformation, as one function of the argument arrays, index by index, on the extended reals.
  For an image `n` and a channel `c`:
    ss(n, c)   = the sum over the 56 × 56 spatial positions of x(n, c, ·, ·)²,
    e(n, c)    = sqrt (ss(n, c) + ε) · α(c),
    inv(n)     = rsqrt ((Σ_k e(n, k)²) / 256 + ε),
    gate(n, c) = 1 + tanh (e(n, c) · γ(c) · inv(n) + β(c)),
  and the result at `(n, c, h, w)` is x(n, c, h, w) · gate(n, c). The three float literals (ε, 256 and 1) are kept as
  the binary words both programs print; none of them is ever evaluated.
  The row part — `embed`, `invNorm`, `gate` — is stated over the 256 channel values of ONE image, so that the same
  definitions describe a row of the whole array and a row of a two-image block.
-/
import Idealize.ShloMosaic.PureOps.Ideal
import Idealize.ShloMosaic.Lib.ValueIdx

noncomputable section

namespace Cert.Gct

open Idealize.ShloMosaic Idealize.ShloMosaic.ValueIdx

/-- ε, the f32 word nearest 1e-5, added under the square root and under the reciprocal square root. -/
abbrev eps : EReal := Ideal.ofBits .f32 0x3727C5AC#32
/-- The number of channels, 256, by which the sum of the squared embeddings is divided. -/
abbrev chans : EReal := Ideal.ofBits .f32 0x43800000#32
/-- The 1 to which the hyperbolic tangent is added. -/
abbrev unit : EReal := Ideal.ofBits .f32 0x3F800000#32

/-- The embedding of one image: channel `c`'s root sum of squares, scaled by α. -/
def embed (ss a : Fin 256 → EReal) (c : Fin 256) : EReal := Ideal.sqrt (ss c + eps) * a c

/-- The reciprocal root mean square of one image's embedding over its 256 channels. -/
def invNorm (ss a : Fin 256 → EReal) : EReal :=
  Ideal.rsqrt (Ideal.div (∑ k : Fin 256, embed ss a k * embed ss a k) chans + eps)

/-- The gate of one image at channel `c`. -/
def gate (ss a g b : Fin 256 → EReal) (c : Fin 256) : EReal :=
  unit + Ideal.tanh (embed ss a c * g c * invNorm ss a + b c)

/-- The sum of squares of image `n`'s channel `c` over its spatial positions, the array in (n, c, h, w) order. -/
def sumSq (x : (⟨4, ![64, 256, 56, 56]⟩ : Shape).Idx → EReal) (n : Fin 64) (c : Fin 256) : EReal :=
  ∑ p : Fin 56 × Fin 56, x (ix4 n c p.1 p.2) * x (ix4 n c p.1 p.2)

/-- The gate of image `n` at channel `c`, from the argument arrays. -/
def gateOf (x : (⟨4, ![64, 256, 56, 56]⟩ : Shape).Idx → EReal) (α γ β : (⟨1, ![256]⟩ : Shape).Idx → EReal)
    (n : Fin 64) (c : Fin 256) : EReal :=
  gate (fun k => sumSq x n k) (fun k => α (ix1 k)) (fun k => γ (ix1 k)) (fun k => β (ix1 k)) c

/-- THE RESULT: every element of `x` times the gate of its image and channel. -/
def result (x : (⟨4, ![64, 256, 56, 56]⟩ : Shape).Idx → EReal) (α γ β : (⟨1, ![256]⟩ : Shape).Idx → EReal) :
    (⟨4, ![64, 256, 56, 56]⟩ : Shape).Idx → EReal :=
  fun i => x i * gateOf x α γ β (i 0) (i 1)

end Cert.Gct

end
-- ==== Proof.LibFiberSum.lean ====
/-
  A sum over the fibre of an index map. A reduction over several axes sums its source over the set of source
  indices that drop to one result index. When that fibre is parametrized by a finite type `κ` — a map `e : κ → ι` into
  the fibre with a left inverse `r` that is also a right inverse on the fibre — the sum over the fibre is the sum over
  `κ`. Two instances are read by coordinates for a rank-4 source: the last two axes summed (the result index keeps the
  first two coordinates), and the two middle axes summed (the result index keeps the first and the last coordinate).
-/
import Idealize.ShloMosaic.Lib.ValueIdx

namespace Idealize.ShloMosaic.ValueIdx

open Idealize.ShloMosaic

/-- The sum of `f` over the fibre `{i | drop i = j}` is the sum over a type `κ` that parametrizes the fibre: `e` lands in
    the fibre, `r` undoes `e`, and on the fibre `e` undoes `r`. -/
theorem sum_fiber_eq_sum {ι κ τ M : Type*} [Fintype ι] [Fintype κ] [AddCommMonoid M]
    (drop : ι → τ) (j : τ) {dec : DecidablePred fun i => drop i = j} (e : κ → ι) (r : ι → κ)
    (hdrop : ∀ k, drop (e k) = j) (hre : ∀ k, r (e k) = k) (her : ∀ i, drop i = j → e (r i) = i) (f : ι → M) :
    ∑ i ∈ Finset.univ.filter (fun i => drop i = j), f i = ∑ k : κ, f (e k) := by
  refine Finset.sum_nbij' r e ?_ ?_ ?_ ?_ ?_
  · intro i _; exact Finset.mem_univ _
  · intro k _; exact Finset.mem_filter.mpr ⟨Finset.mem_univ _, hdrop k⟩
  · intro i hi; exact her i (Finset.mem_filter.mp hi).2
  · intro k _; exact hre k
  · intro i hi; rw [her i (Finset.mem_filter.mp hi).2]

/-- A rank-4 array summed over its LAST TWO axes: when `drop` keeps the first two coordinates, the fibre over
    `(a, b)` is `{(a, b, p, q)}`, and the sum over it is the sum over the pairs `(p, q)`. -/
theorem sum_fiber_ix4_last2 {n0 n1 n2 n3 : ℕ} {M : Type*} [AddCommMonoid M]
    (drop : (⟨4, ![n0, n1, n2, n3]⟩ : Shape).Idx → (⟨2, ![n0, n1]⟩ : Shape).Idx)
    (hd0 : ∀ i, (drop i 0).val = (i 0).val) (hd1 : ∀ i, (drop i 1).val = (i 1).val)
    (a : Fin n0) (b : Fin n1) {dec : DecidablePred fun i => drop i = ix2 a b}
    (f : (⟨4, ![n0, n1, n2, n3]⟩ : Shape).Idx → M) :
    ∑ i ∈ Finset.univ.filter (fun i => drop i = ix2 a b), f i = ∑ p : Fin n2 × Fin n3, f (ix4 a b p.1 p.2) := by
  refine sum_fiber_eq_sum drop (ix2 a b) (fun p : Fin n2 × Fin n3 => ix4 a b p.1 p.2) (fun i => (i 2, i 3)) ?_ ?_ ?_ f
  · intro p; funext d; apply Fin.ext
    match d with
    | ⟨0, _⟩ => exact hd0 _
    | ⟨1, _⟩ => exact hd1 _
  · intro p; rfl
  · intro i h
    have h0 : (i 0).val = a.val := (hd0 i).symm.trans (congrArg (fun j => (j 0).val) h)
    have h1 : (i 1).val = b.val := (hd1 i).symm.trans (congrArg (fun j => (j 1).val) h)
    funext d; apply Fin.ext
    match d with
    | ⟨0, _⟩ => exact h0.symm
    | ⟨1, _⟩ => exact h1.symm
    | ⟨2, _⟩ => rfl
    | ⟨3, _⟩ => rfl

/-- A rank-4 array summed over its TWO MIDDLE axes: when `drop` keeps the first and the last coordinate, the fibre
    over `(a, b)` is `{(a, p, q, b)}`, and the sum over it is the sum over the pairs `(p, q)`. -/
theorem sum_fiber_ix4_mid2 {n0 n1 n2 n3 : ℕ} {M : Type*} [AddCommMonoid M]
    (drop : (⟨4, ![n0, n1, n2, n3]⟩ : Shape).Idx → (⟨2, ![n0, n3]⟩ : Shape).Idx)
    (hd0 : ∀ i, (drop i 0).val = (i 0).val) (hd1 : ∀ i, (drop i 1).val = (i 3).val)
    (a : Fin n0) (b : Fin n3) {dec : DecidablePred fun i => drop i = ix2 a b}
    (f : (⟨4, ![n0, n1, n2, n3]⟩ : Shape).Idx → M) :
    ∑ i ∈ Finset.univ.filter (fun i => drop i = ix2 a b), f i = ∑ p : Fin n1 × Fin n2, f (ix4 a p.1 p.2 b) := by
  refine sum_fiber_eq_sum drop (ix2 a b) (fun p : Fin n1 × Fin n2 => ix4 a p.1 p.2 b) (fun i => (i 1, i 2)) ?_ ?_ ?_ f
  · intro p; funext d; apply Fin.ext
    match d with
    | ⟨0, _⟩ => exact hd0 _
    | ⟨1, _⟩ => exact hd1 _
  · intro p; rfl
  · intro i h
    have h0 : (i 0).val = a.val := (hd0 i).symm.trans (congrArg (fun j => (j 0).val) h)
    have h3 : (i 3).val = b.val := (hd1 i).symm.trans (congrArg (fun j => (j 1).val) h)
    funext d; apply Fin.ext
    match d with
    | ⟨0, _⟩ => exact h0.symm
    | ⟨1, _⟩ => rfl
    | ⟨2, _⟩ => rfl
    | ⟨3, _⟩ => exact h3.symm

end Idealize.ShloMosaic.ValueIdx
-- ==== Proof.RefValue.lean ====
/-
  The reference computes `Cert.Gct.result`. Its stages are read at an index one after the other: the sum of squares
  over the two spatial axes (a sum over the fibre of the index map that forgets them, re-indexed by the pairs of
  spatial coordinates), the embedding, the sum of the squared embeddings over the channels, the reciprocal root of its
  mean, the gate, and the product with the input. Each initial value of a sum is the zero word, which adds nothing.
-/
import proofs.«115210_g25056839205320_feedfinal_431_7_alg».proof.Proof.Gen.ReferenceIdeal.Read
import proofs.«115210_g25056839205320_feedfinal_431_7_alg».proof.Proof.Spec
import proofs.«115210_g25056839205320_feedfinal_431_7_alg».proof.Proof.LibFiberSum
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Gct

/-- The sum over the spatial axes at `(n, c)`: the fibre of `(n, c)` under "forget h and w" is `{(n, c, h, w)}`. -/
theorem sumsq_apply (x0 : FVec Ideal S64x256x56x56 .f32) (n : Fin 64) (c : Fin 256) :
    val_main_v1 (F := Ideal) x0 (ix2 n c) = sumSq x0 n c := by
  unfold val_main_v1
  rw [hostReduceAdd_apply]
  unfold Ideal.hostReduceAdd
  rw [sum_fiber_ix4_last2 (reducesTo_S64x256x56x56_S64x256_d2_3.drop)
    (fun i => Shape.ReducesTo.drop_apply_val_of_eq _ i 0 0) (fun i => Shape.ReducesTo.drop_apply_val_of_eq _ i 1 1) n c]
  show Ideal.ofBits .f32 0x00000000#32 + _ = _
  rw [Ideal.ofBits_zero_f32, zero_add]
  rfl

/-- A per-channel vector broadcast over the images reads its channel's entry (α). -/
theorem alpha_apply (x : FVec Ideal S256 .f32) (n : Fin 64) (c : Fin 256) :
    val_main_v6 (F := Ideal) x (ix2 n c) = x (ix1 c) := by
  rw [val_main_v6_apply, val_main_v5_apply]
  exact congrArg x (funext fun a => Fin.ext (by match a with | ⟨0, _⟩ => rfl))

/-- The same for γ. -/
theorem gamma_apply (x : FVec Ideal S256 .f32) (n : Fin 64) (c : Fin 256) :
    val_main_v16 (F := Ideal) x (ix2 n c) = x (ix1 c) := by
  rw [val_main_v16_apply, val_main_v15_apply]
  exact congrArg x (funext fun a => Fin.ext (by match a with | ⟨0, _⟩ => rfl))

/-- The same for β. -/
theorem beta_apply (x : FVec Ideal S256 .f32) (n : Fin 64) (c : Fin 256) :
    val_main_v22 (F := Ideal) x (ix2 n c) = x (ix1 c) := by
  rw [val_main_v22_apply, val_main_v21_apply]
  exact congrArg x (funext fun a => Fin.ext (by match a with | ⟨0, _⟩ => rfl))

/-- The embedding at `(n, c)`. -/
theorem embed_apply (x0 : FVec Ideal S64x256x56x56 .f32) (x1 : FVec Ideal S256 .f32) (n : Fin 64) (c : Fin 256) :
    val_main_v7 (F := Ideal) x0 x1 (ix2 n c) = embed (fun k => sumSq x0 n k) (fun k => x1 (ix1 k)) c := by
  rw [val_main_v7_apply, val_main_v4_apply, val_main_v3_apply, sumsq_apply, val_main_v2_apply, val_main_cst_0_apply,
    alpha_apply]
  rfl

/-- The sum of the squared embeddings of image `n` over its channels. -/
theorem sqsum_apply (x0 : FVec Ideal S64x256x56x56 .f32) (x1 : FVec Ideal S256 .f32) (n : Fin 64) :
    val_main_v9 (F := Ideal) x0 x1 (ix1 n)
      = ∑ k : Fin 256, embed (fun k => sumSq x0 n k) (fun k => x1 (ix1 k)) k * embed (fun k => sumSq x0 n k) (fun k => x1 (ix1 k)) k := by
  rw [val_main_v9_apply]
  show Ideal.ofBits .f32 0x00000000#32 + _ = _
  rw [Ideal.ofBits_zero_f32, zero_add]
  refine Finset.sum_congr rfl fun k _ => ?_
  have e : idx_main_v9 (ix1 n) k = ix2 n k :=
    funext fun a => Fin.ext (by match a with | ⟨0, _⟩ => rfl | ⟨1, _⟩ => rfl)
  rw [e, val_main_v8_apply, embed_apply]
  rfl

/-- The reciprocal root mean square of image `n`'s embedding. -/
theorem inv_apply (x0 : FVec Ideal S64x256x56x56 .f32) (x1 : FVec Ideal S256 .f32) (n : Fin 64) :
    val_main_v14 (F := Ideal) x0 x1 (ix1 n) = invNorm (fun k => sumSq x0 n k) (fun k => x1 (ix1 k)) := by
  rw [val_main_v14_apply, val_main_v13_apply, val_main_v11_apply, sqsum_apply, val_main_v10_apply, val_main_cst_2_apply,
    val_main_v12_apply, val_main_cst_3_apply]
  rfl

/-- … broadcast over the channels. -/
theorem inv_bcast_apply (x0 : FVec Ideal S64x256x56x56 .f32) (x1 : FVec Ideal S256 .f32) (n : Fin 64) (c : Fin 256) :
    val_main_v19 (F := Ideal) x0 x1 (ix2 n c) = invNorm (fun k => sumSq x0 n k) (fun k => x1 (ix1 k)) := by
  rw [val_main_v19_apply, val_main_v18_apply]
  have e : idx_main_v18 (idx_main_v19 (ix2 n c)) = ix1 n :=
    funext fun a => Fin.ext (by match a with | ⟨0, _⟩ => rfl)
  rw [e, inv_apply]

/-- The gate at `(n, c)`. -/
theorem gate_apply (x0 : FVec Ideal S64x256x56x56 .f32) (x1 x2 x3 : FVec Ideal S256 .f32) (n : Fin 64) (c : Fin 256) :
    val_main_v26 (F := Ideal) x0 x1 x2 x3 (ix2 n c) = gateOf x0 x1 x2 x3 n c := by
  rw [val_main_v26_apply, val_main_v25_apply, val_main_cst_4_apply, val_main_v24_apply, val_main_v23_apply,
    val_main_v20_apply, val_main_v17_apply, embed_apply, gamma_apply, inv_bcast_apply, beta_apply]
  rfl

/-- THE REFERENCE'S RESULT is `result` of its arguments. -/
theorem ref_eq (x0 : FVec Ideal S64x256x56x56 .f32) (x1 x2 x3 : FVec Ideal S256 .f32) :
    val_main_v29 (F := Ideal) x0 x1 x2 x3 = result x0 x1 x2 x3 := by
  funext i
  obtain ⟨n, c, h, w, rfl⟩ : ∃ (n : Fin 64) (c : Fin 256) (h : Fin 56) (w : Fin 56), i = ix4 n c h w :=
    ⟨i 0, i 1, i 2, i 3, eq_ix4 i⟩
  rw [val_main_v29_apply, val_main_v28_apply, val_main_v27_apply]
  have e : idx_main_v27 (idx_main_v28 (ix4 n c h w)) = ix2 n c :=
    funext fun a => Fin.ext (by match a with | ⟨0, _⟩ => rfl | ⟨1, _⟩ => rfl)
  rw [e, gate_apply]
  rfl

end Cert.ReferenceIdeal.RefValue

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibLayout4.lean ====
/-
  Rank-4 layout operations read at an index given by coordinates. Moving the second axis of a rank-4 array to the end
  (permutation `[0, 2, 3, 1]`) and moving the last axis back to second place (`[0, 3, 1, 2]`) — the change between
  channel-second and channel-last image layouts; and a per-(row, column) value `[a, b]` spread over two inner axes: cast
  to `[a, 1, 1, b]`, then broadcast to `[a, m, n, b]`.
-/
import Idealize.ShloMosaic.Lib.Pipeline.Value
import Idealize.ShloMosaic.Lib.ValueIdx

namespace Idealize.ShloMosaic.ValueIdx

open Idealize.ShloMosaic

variable {α : Type}

/-- The second axis moved to the end: the result at `(a, c, d, b)` is the operand at `(a, b, c, d)`. -/
theorem transpose_ix4_0231_apply {n0 n1 n2 n3 : ℕ} (x : (⟨4, ![n0, n1, n2, n3]⟩ : Shape).Idx → α)
    (h : (⟨4, ![n0, n1, n2, n3]⟩ : Shape).Transposes [0, 2, 3, 1] ⟨4, ![n0, n2, n3, n1]⟩)
    (a : Fin n0) (b : Fin n1) (c : Fin n2) (d : Fin n3) :
    transpose ⟨4, ![n0, n2, n3, n1]⟩ [0, 2, 3, 1] x h (ix4 a c d b) = x (ix4 a b c d) :=
  transpose_apply _ x h _ _ fun e => match e with | ⟨0, _⟩ => rfl | ⟨1, _⟩ => rfl | ⟨2, _⟩ => rfl | ⟨3, _⟩ => rfl

/-- The last axis moved to second place: the result at `(a, d, b, c)` is the operand at `(a, b, c, d)`. -/
theorem transpose_ix4_0312_apply {n0 n1 n2 n3 : ℕ} (x : (⟨4, ![n0, n1, n2, n3]⟩ : Shape).Idx → α)
    (h : (⟨4, ![n0, n1, n2, n3]⟩ : Shape).Transposes [0, 3, 1, 2] ⟨4, ![n0, n3, n1, n2]⟩)
    (a : Fin n0) (b : Fin n1) (c : Fin n2) (d : Fin n3) :
    transpose ⟨4, ![n0, n3, n1, n2]⟩ [0, 3, 1, 2] x h (ix4 a d b c) = x (ix4 a b c d) :=
  transpose_apply _ x h _ _ fun e => match e with | ⟨0, _⟩ => rfl | ⟨1, _⟩ => rfl | ⟨2, _⟩ => rfl | ⟨3, _⟩ => rfl

/-- An `[a, b]` array cast to `[a, 1, 1, b]` reads, at `(i, z, z', j)`, the operand at `(i, j)`: the two unit
    coordinates are `0`, so both positions are `i · b + j` in row-major order. -/
theorem shapeCast_ab_a11b_apply {a b : ℕ} (x : (⟨2, ![a, b]⟩ : Shape).Idx → α)
    (h : (⟨2, ![a, b]⟩ : Shape).ShapeCasts ⟨4, ![a, 1, 1, b]⟩) (i : Fin a) (z z' : Fin 1) (j : Fin b) :
    shapeCast ⟨4, ![a, 1, 1, b]⟩ x h (ix4 i z z' j) = x (ix2 i j) :=
  shapeCast_apply x h _ _ (by
    have hz : z.val = 0 := by omega
    have hz' : z'.val = 0 := by omega
    rw [Shape.rowMajor_val_two, Shape.rowMajor_val_four]
    show i.val * b + j.val = ((i.val * 1 + z.val) * 1 + z'.val) * b + j.val
    simp only [hz, hz', Nat.mul_one, Nat.add_zero])

/-- An `[a, 1, 1, b]` array broadcast to `[a, m, n, b]` reads, at `(i, p, q, j)`, the operand at `(i, 0, 0, j)`. -/
theorem broadcastTo_a11b_amnb_apply {a m n b : ℕ} (v : (⟨4, ![a, 1, 1, b]⟩ : Shape).Idx → α)
    (h : (⟨4, ![a, 1, 1, b]⟩ : Shape).Broadcasts ⟨4, ![a, m, n, b]⟩) (i : Fin a) (p : Fin m) (q : Fin n) (j : Fin b) :
    broadcastTo ⟨4, ![a, m, n, b]⟩ v h (ix4 i p q j) = v (ix4 i (0 : Fin 1) (0 : Fin 1) j) := by
  refine broadcastTo_apply v h (ix4 i p q j) (ix4 i (0 : Fin 1) (0 : Fin 1) j) fun ax => ?_
  match ax with
  | ⟨0, _⟩ =>
    show i.val = if a = 1 then 0 else i.val
    split
    · have := i.isLt; omega
    · rfl
  | ⟨1, _⟩ =>
    show (0 : ℕ) = if (1 : ℕ) = 1 then 0 else p.val
    rw [if_pos rfl]
  | ⟨2, _⟩ =>
    show (0 : ℕ) = if (1 : ℕ) = 1 then 0 else q.val
    rw [if_pos rfl]
  | ⟨3, _⟩ =>
    show j.val = if b = 1 then 0 else j.val
    split
    · have := j.isLt; omega
    · rfl

end Idealize.ShloMosaic.ValueIdx
-- ==== Proof.KernelPayload.lean ====
/-
  The kernel body's arithmetic on one block of two images, read at an index. The body squares its block and sums the
  squares over the two spatial axes (the two MIDDLE axes of the channel-last block), takes the embedding, sums its squares
  along the channels, divides by 256, adds ε and takes the reciprocal root, forms the gate and multiplies the block by
  it. The stages are named here as the body writes them; each is then read at `(b, c)` — image `b` of the block, channel
  `c` — and comes out as the row functions `Cert.Gct.embed`, `invNorm` and `gate` of that image's sums of squares and of
  the three one-row parameter blocks.
-/
import proofs.«115210_g25056839205320_feedfinal_431_7_alg».proof.Proof.Gen.KernelIdeal.Skeleton
import proofs.«115210_g25056839205320_feedfinal_431_7_alg».proof.Proof.Spec
import proofs.«115210_g25056839205320_feedfinal_431_7_alg».proof.Proof.LibFiberSum
import proofs.«115210_g25056839205320_feedfinal_431_7_alg».proof.Proof.LibColumn
import proofs.«115210_g25056839205320_feedfinal_431_7_alg».proof.Proof.LibLayout4
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx Cert.Gct

variable (v0 : FVec Ideal S2x56x56x256 .f32) (v7 v19 v25 : FVec Ideal S1x256 .f32)

/-- The block's sums of squares over the spatial axes, one per (image, channel). -/
def blockSumSq : FVec Ideal S2x256 .f32 :=
  multiReduction (F := Ideal) .add [1, 2] S2x256
    (mulf (shapeCast S2x56x56x256 v0 shapeCasts_S2x56x56x256_S2x56x56x256) (shapeCast S2x56x56x256 v0 shapeCasts_S2x56x56x256_S2x56x56x256))
    0x00000000#32 reduces_S2x56x56x256_S2x256 (.inl rfl) rfl

/-- A one-row parameter block spread over the block's two images. -/
def rowOver (v : FVec Ideal S1x256 .f32) : FVec Ideal S2x256 .f32 :=
  broadcastTo S2x256 (shapeCast S1x256 v shapeCasts_S1x256_S1x256) broadcasts_S1x256_S2x256

/-- The block's embedding. -/
def blockEmbed : FVec Ideal S2x256 .f32 :=
  mulf (sqrt (addf (blockSumSq v0) (broadcast S2x256 (Scalar.ofBits .f32 0x3727C5AC#32 : Ideal .f32)))) (rowOver v7)

/-- The block's reciprocal root mean squares, one per image, kept as a column. -/
def blockInv : FVec Ideal S2x1 .f32 :=
  rsqrt (addf
    (divf
      (shapeCast S2x1
        (multiReduction (F := Ideal) .add [1] S2 (mulf (blockEmbed v0 v7) (blockEmbed v0 v7)) 0x00000000#32 reduces_S2x256_S2 (.inl rfl) rfl)
        shapeCasts_S2_S2x1)
      (broadcast S2x1 (Scalar.ofBits .f32 0x43800000#32 : Ideal .f32)))
    (broadcast S2x1 (Scalar.ofBits .f32 0x3727C5AC#32 : Ideal .f32)))

/-- The block's gate, one per (image, channel). -/
def blockGate : FVec Ideal S2x256 .f32 :=
  addf (broadcast S2x256 (Scalar.ofBits .f32 0x3F800000#32 : Ideal .f32))
    (tanh (addf
      (mulf (mulf (blockEmbed v0 v7) (rowOver v19)) (broadcastTo S2x256 (blockInv v0 v7) broadcasts_S2x1_S2x256))
      (rowOver v25)))

/-- The body's one payload is the block times its gate spread over the spatial axes. -/
theorem pay_eq : k0_pay1 (F := Ideal) v0 v7 v19 v25
    = mulf (shapeCast S2x56x56x256 v0 shapeCasts_S2x56x56x256_S2x56x56x256)
        (broadcastTo S2x56x56x256 (shapeCast S2x1x1x256 (blockGate v0 v7 v19 v25) shapeCasts_S2x256_S2x1x1x256)
          broadcasts_S2x1x1x256_S2x56x56x256) := rfl

/-- Image `b`'s sums of squares, read off the block. -/
abbrev ssOf (b : Fin 2) : Fin 256 → EReal :=
  fun k => ∑ p : Fin 56 × Fin 56, v0 (ix4 b p.1 p.2 k) * v0 (ix4 b p.1 p.2 k)

/-- The sum over the two middle axes at `(b, c)`: the fibre of `(b, c)` under "forget h and w" is `{(b, h, w, c)}`. -/
theorem blockSumSq_apply (b : Fin 2) (c : Fin 256) : blockSumSq v0 (ix2 b c) = ssOf v0 b c := by
  show Ideal.reduceAdd reduces_S2x56x56x256_S2x256 _ (ix2 b c) = _
  unfold Ideal.reduceAdd
  rw [sum_fiber_ix4_mid2 (reduces_S2x56x56x256_S2x256.drop)
    (fun i => Shape.Reduces.drop_apply_val_of_eq _ i 0 0) (fun i => Shape.Reduces.drop_apply_val_of_eq _ i 1 3) b c]
  refine Finset.sum_congr rfl fun p _ => ?_
  rw [shapeCast_self]
  rfl

theorem rowOver_apply (v : FVec Ideal S1x256 .f32) (b : Fin 2) (c : Fin 256) : rowOver v (ix2 b c) = v (ix2 (0 : Fin 1) c) := by
  unfold rowOver
  rw [shapeCast_self]
  exact broadcastTo_1b_ab_apply v _ b c

theorem blockEmbed_apply (b : Fin 2) (c : Fin 256) :
    blockEmbed v0 v7 (ix2 b c) = embed (ssOf v0 b) (fun k => v7 (ix2 (0 : Fin 1) k)) c := by
  show Ideal.sqrt (blockSumSq v0 (ix2 b c) + eps) * rowOver v7 (ix2 b c) = _
  rw [blockSumSq_apply, rowOver_apply]
  rfl

theorem blockInv_apply (b : Fin 2) (z : Fin 1) :
    blockInv v0 v7 (ix2 b z) = invNorm (ssOf v0 b) (fun k => v7 (ix2 (0 : Fin 1) k)) := by
  have hs : shapeCast S2x1
        (multiReduction (F := Ideal) .add [1] S2 (mulf (blockEmbed v0 v7) (blockEmbed v0 v7)) 0x00000000#32 reduces_S2x256_S2 (.inl rfl) rfl)
        shapeCasts_S2_S2x1 (ix2 b z)
      = ∑ k : Fin 256, embed (ssOf v0 b) (fun k => v7 (ix2 (0 : Fin 1) k)) k * embed (ssOf v0 b) (fun k => v7 (ix2 (0 : Fin 1) k)) k := by
    refine (shapeCast_a_a1_apply _ shapeCasts_S2_S2x1 b z).trans ?_
    refine (Ideal.reduceAdd_single reduces_S2x256_S2 _ (ix1 b)).trans ?_
    refine Finset.sum_congr rfl fun (k : Fin 256) _ => ?_
    have e : reduces_S2x256_S2.lift (ix1 b) k = ix2 b k :=
      funext fun a => Fin.ext (by match a with | ⟨0, _⟩ => rfl | ⟨1, _⟩ => rfl)
    rw [e]
    show blockEmbed v0 v7 (ix2 b k) * blockEmbed v0 v7 (ix2 b k) = _
    rw [blockEmbed_apply]
  show Ideal.rsqrt (Ideal.div (shapeCast S2x1 _ shapeCasts_S2_S2x1 (ix2 b z)) chans + eps) = _
  rw [hs]
  rfl

theorem blockGate_apply (b : Fin 2) (c : Fin 256) :
    blockGate v0 v7 v19 v25 (ix2 b c)
      = gate (ssOf v0 b) (fun k => v7 (ix2 (0 : Fin 1) k)) (fun k => v19 (ix2 (0 : Fin 1) k)) (fun k => v25 (ix2 (0 : Fin 1) k)) c := by
  show unit + Ideal.tanh (blockEmbed v0 v7 (ix2 b c) * rowOver v19 (ix2 b c)
      * broadcastTo S2x256 (blockInv v0 v7) broadcasts_S2x1_S2x256 (ix2 b c) + rowOver v25 (ix2 b c)) = _
  rw [blockEmbed_apply, rowOver_apply, rowOver_apply, broadcastTo_a1_ab_apply, blockInv_apply]
  rfl

/-- THE PAYLOAD AT AN INDEX: the block's element times the gate of its image and channel. -/
theorem pay_apply (b : Fin 2) (h w : Fin 56) (c : Fin 256) :
    k0_pay1 (F := Ideal) v0 v7 v19 v25 (ix4 b h w c)
      = v0 (ix4 b h w c)
        * gate (ssOf v0 b) (fun k => v7 (ix2 (0 : Fin 1) k)) (fun k => v19 (ix2 (0 : Fin 1) k)) (fun k => v25 (ix2 (0 : Fin 1) k)) c := by
  rw [pay_eq]
  show shapeCast S2x56x56x256 v0 shapeCasts_S2x56x56x256_S2x56x56x256 (ix4 b h w c)
      * broadcastTo S2x56x56x256 (shapeCast S2x1x1x256 (blockGate v0 v7 v19 v25) shapeCasts_S2x256_S2x1x1x256)
          broadcasts_S2x1x1x256_S2x56x56x256 (ix4 b h w c) = _
  rw [shapeCast_self, broadcastTo_a11b_amnb_apply, shapeCast_ab_a11b_apply, blockGate_apply]

end Cert.KernelIdeal.Payload

end
-- ==== Proof.KernelValue.lean ====
/-
  From the body's blocks to the kernel's result array. The region is entered with the input in channel-last order (a
  transpose of the argument) and the three parameter vectors as one-row matrices. Grid point `t` works on images `2t`
  and `2t + 1`: its input block is those two images, its three parameter blocks are the whole one-row matrices, and what
  it writes back is the same two images of ONE whole-array function, `resultLast` — the result in channel-last order.
  The 32 blocks tile the array (image `n` lies in block `n / 2`), so the array ends at `resultLast`; the transpose after
  the region turns it into `Cert.Gct.result`.
-/
import proofs.«115210_g25056839205320_feedfinal_431_7_alg».proof.Proof.Gen.KernelIdeal.Frame
import proofs.«115210_g25056839205320_feedfinal_431_7_alg».proof.Proof.KernelPayload
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Cert.Gct

variable (m : (ℓ : Loc nD τ sig) → Buf (Elt Ideal) ℓ) (ρ : Dev nD → PrngReg)

/-- The result in channel-last order: at `(n, h, w, c)` the input's element `(n, c, h, w)` times the gate of `(n, c)`. -/
def resultLast (x : (⟨4, ![64, 256, 56, 56]⟩ : Shape).Idx → EReal) (α γ β : (⟨1, ![256]⟩ : Shape).Idx → EReal) :
    (⟨4, ![64, 56, 56, 256]⟩ : Shape).Idx → EReal :=
  fun i => x (ix4 (i 0) (i 3) (i 1) (i 2)) * gateOf x α γ β (i 0) (i 3)

/-! ## The arrays as the region finds them -/

/-- The input in channel-last order. -/
theorem V_v0 (c : Dev nD) : (V m c main_v0 : S64x56x56x256.Idx → EReal)
    = transpose S64x56x56x256 [0, 2, 3, 1] (m ((c : Thread nD τ).loc main_arg0)) transposes_S64x256x56x56_S64x56x56x256_0_2_3_1 := by
  show StableHlo.after hostOps0 (fun b => m (c, b)) (Proc.devRef .tc main_v0) = _
  after_results

/-- α as a one-row matrix. -/
theorem V_v1 (c : Dev nD) : (V m c main_v1 : S1x256.Idx → EReal)
    = shapeCast S1x256 (m ((c : Thread nD τ).loc main_arg1)) shapeCasts_S256_S1x256 := by
  show StableHlo.after hostOps0 (fun b => m (c, b)) (Proc.devRef .tc main_v1) = _
  after_results
  rfl

/-- γ as a one-row matrix. -/
theorem V_v2 (c : Dev nD) : (V m c main_v2 : S1x256.Idx → EReal)
    = shapeCast S1x256 (m ((c : Thread nD τ).loc main_arg2)) shapeCasts_S256_S1x256 := by
  show StableHlo.after hostOps0 (fun b => m (c, b)) (Proc.devRef .tc main_v2) = _
  after_results
  rfl

/-- β as a one-row matrix. -/
theorem V_v3 (c : Dev nD) : (V m c main_v3 : S1x256.Idx → EReal)
    = shapeCast S1x256 (m ((c : Thread nD τ).loc main_arg3)) shapeCasts_S256_S1x256 := by
  show StableHlo.after hostOps0 (fun b => m (c, b)) (Proc.devRef .tc main_v3) = _
  after_results
  rfl

/-! ## The windows' block indices, decided over the 32 grid points -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The input's and the output's blocks move along the image axis with the point; the parameter blocks stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

theorem t_lt (t : Fin cfg0.N) : t.val < 32 := by
  have h : t.val < grid0.N := t.isLt
  have hN : grid0.N = 32 := N_0
  omega

/-! ## The input blocks read at an index -/

/-- The input block at point `t`: image `b` of the block is image `2t + b` of the argument. -/
theorem iblk0_apply (c : Dev nD) (t : Fin cfg0.N) (b : Fin 2) (h w : Fin 56) (k : Fin 256) (n : Fin 64)
    (hn : n.val = 2 * t.val + b.val) :
    (iblk m c 0 t : FVec Ideal S2x56x56x256 .f32) (ix4 b h w k) = m ((c : Thread nD τ).loc main_arg0) (ix4 n k h w) := by
  obtain ⟨e0, e1, e2, e3, -⟩ := idx_facts t
  unfold iblk
  rw [View.read_apply]
  show V m c main_v0 _ = _
  rw [V_v0]
  refine Eq.trans (congrArg _ ?_) (transpose_ix4_0231_apply _ _ n k h w)
  funext a
  apply Fin.ext
  match a with
  | ⟨0, _⟩ => show win0_0.index t (0 : Fin 4) * 2 + 1 * b.val = n.val; rw [e0, hn]; omega
  | ⟨1, _⟩ => show win0_0.index t (1 : Fin 4) * 56 + 1 * h.val = h.val; rw [e1]; omega
  | ⟨2, _⟩ => show win0_0.index t (2 : Fin 4) * 56 + 1 * w.val = w.val; rw [e2]; omega
  | ⟨3, _⟩ => show win0_0.index t (3 : Fin 4) * 256 + 1 * k.val = k.val; rw [e3]; omega

/-- α's block at every point is α. -/
theorem iblk1_apply (c : Dev nD) (t : Fin cfg0.N) (k : Fin 256) :
    (iblk m c 1 t : FVec Ideal S1x256 .f32) (ix2 (0 : Fin 1) k) = m ((c : Thread nD τ).loc main_arg1) (ix1 k) := by
  obtain ⟨-, -, -, -, e0, e1, -⟩ := idx_facts t
  unfold iblk
  rw [View.read_apply]
  show V m c main_v1 _ = _
  rw [V_v1]
  refine Eq.trans (congrArg _ ?_) (shapeCast_a_1a_apply _ _ (0 : Fin 1) k)
  funext a
  apply Fin.ext
  match a with
  | ⟨0, _⟩ => show win0_1.index t (0 : Fin 2) * 1 + 1 * 0 = 0; rw [e0]
  | ⟨1, _⟩ => show win0_1.index t (1 : Fin 2) * 256 + 1 * k.val = k.val; rw [e1]; omega

/-- γ's block at every point is γ. -/
theorem iblk2_apply (c : Dev nD) (t : Fin cfg0.N) (k : Fin 256) :
    (iblk m c 2 t : FVec Ideal S1x256 .f32) (ix2 (0 : Fin 1) k) = m ((c : Thread nD τ).loc main_arg2) (ix1 k) := by
  obtain ⟨-, -, -, -, -, -, e0, e1, -⟩ := idx_facts t
  unfold iblk
  rw [View.read_apply]
  show V m c main_v2 _ = _
  rw [V_v2]
  refine Eq.trans (congrArg _ ?_) (shapeCast_a_1a_apply _ _ (0 : Fin 1) k)
  funext a
  apply Fin.ext
  match a with
  | ⟨0, _⟩ => show win0_2.index t (0 : Fin 2) * 1 + 1 * 0 = 0; rw [e0]
  | ⟨1, _⟩ => show win0_2.index t (1 : Fin 2) * 256 + 1 * k.val = k.val; rw [e1]; omega

/-- β's block at every point is β. -/
theorem iblk3_apply (c : Dev nD) (t : Fin cfg0.N) (k : Fin 256) :
    (iblk m c 3 t : FVec Ideal S1x256 .f32) (ix2 (0 : Fin 1) k) = m ((c : Thread nD τ).loc main_arg3) (ix1 k) := by
  obtain ⟨-, -, -, -, -, -, -, -, e0, e1, -⟩ := idx_facts t
  unfold iblk
  rw [View.read_apply]
  show V m c main_v3 _ = _
  rw [V_v3]
  refine Eq.trans (congrArg _ ?_) (shapeCast_a_1a_apply _ _ (0 : Fin 1) k)
  funext a
  apply Fin.ext
  match a with
  | ⟨0, _⟩ => show win0_3.index t (0 : Fin 2) * 1 + 1 * 0 = 0; rw [e0]
  | ⟨1, _⟩ => show win0_3.index t (1 : Fin 2) * 256 + 1 * k.val = k.val; rw [e1]; omega

/-! ## What a point writes back -/

/-- WHAT POINT `t` WRITES BACK is block `t` of `resultLast` of the argument arrays. -/
theorem flushed_eq (c : Dev nD) (t : Fin cfg0.N) :
    (dats m 0 c).flushed 4 t = ((cfg0.win 4).blk t).view.read (Elt Ideal)
      (resultLast (m ((c : Thread nD τ).loc main_arg0)) (m ((c : Thread nD τ).loc main_arg1))
        (m ((c : Thread nD τ).loc main_arg2)) (m ((c : Thread nD τ).loc main_arg3))) := by
  show (cfg0.win 4).cut (grid0.coords t) ((dats m 0 c).after 4 t) = _
  rw [after0_4]
  unfold out0_4
  rw [View.canon_unit_zero hz4]
  simp only [View.ld_unit_zero (S := S2x56x56x256) hz4, View.ld_unit_zero (S := S1x256) hz2]
  funext j
  obtain ⟨b, h, w, k, rfl⟩ : ∃ (b : Fin 2) (h w : Fin 56) (k : Fin 256), j = ix4 b h w k := ⟨j 0, j 1, j 2, j 3, eq_ix4 j⟩
  have ht := t_lt t
  have hb := b.isLt
  obtain ⟨-, -, -, -, -, -, -, -, -, -, e0, e1, e2, e3⟩ := idx_facts t
  have he : ((cfg0.win 4).blk t).view.emb (ix4 b h w k) = ix4 (⟨2 * t.val + b.val, by omega⟩ : Fin 64) h w k := by
    funext a
    apply Fin.ext
    match a with
    | ⟨0, _⟩ => show win0_4.index t (0 : Fin 4) * 2 + 1 * b.val = 2 * t.val + b.val; rw [e0]; omega
    | ⟨1, _⟩ => show win0_4.index t (1 : Fin 4) * 56 + 1 * h.val = h.val; rw [e1]; omega
    | ⟨2, _⟩ => show win0_4.index t (2 : Fin 4) * 56 + 1 * w.val = w.val; rw [e2]; omega
    | ⟨3, _⟩ => show win0_4.index t (3 : Fin 4) * 256 + 1 * k.val = k.val; rw [e3]; omega
  show k0_pay1 (F := Ideal) (iblk m c 0 t) (iblk m c 1 t) (iblk m c 2 t) (iblk m c 3 t) (ix4 b h w k)
    = resultLast _ _ _ _ (((cfg0.win 4).blk t).view.emb (ix4 b h w k))
  rw [he]
  refine (Payload.pay_apply (iblk m c 0 t) (iblk m c 1 t) (iblk m c 2 t) (iblk m c 3 t) b h w k).trans ?_
  have x0 : ∀ (h' w' : Fin 56) (k' : Fin 256), (iblk m c 0 t : FVec Ideal S2x56x56x256 .f32) (ix4 b h' w' k')
      = m ((c : Thread nD τ).loc main_arg0) (ix4 (⟨2 * t.val + b.val, by omega⟩ : Fin 64) k' h' w') :=
    fun h' w' k' => iblk0_apply m c t b h' w' k' _ rfl
  have ess : Payload.ssOf (iblk m c 0 t) b
      = fun k' => sumSq (m ((c : Thread nD τ).loc main_arg0)) (⟨2 * t.val + b.val, by omega⟩ : Fin 64) k' :=
    funext fun k' => Finset.sum_congr rfl fun p _ => by rw [x0]
  have ea : (fun k' : Fin 256 => (iblk m c 1 t : FVec Ideal S1x256 .f32) (ix2 (0 : Fin 1) k'))
      = fun k' => m ((c : Thread nD τ).loc main_arg1) (ix1 k') := funext fun k' => iblk1_apply m c t k'
  have eg : (fun k' : Fin 256 => (iblk m c 2 t : FVec Ideal S1x256 .f32) (ix2 (0 : Fin 1) k'))
      = fun k' => m ((c : Thread nD τ).loc main_arg2) (ix1 k') := funext fun k' => iblk2_apply m c t k'
  have eb : (fun k' : Fin 256 => (iblk m c 3 t : FVec Ideal S1x256 .f32) (ix2 (0 : Fin 1) k'))
      = fun k' => m ((c : Thread nD τ).loc main_arg3) (ix1 k') := funext fun k' => iblk3_apply m c t k'
  rw [ess, ea, eg, eb, x0]
  rfl

/-! ## The blocks tile the array -/

theorem mem_blk (t : Fin cfg0.N) (i : S64x56x56x256.Idx) :
    i ∈ ((cfg0.win 4).blk t).view.set ↔ ∀ a : Fin 4, win0_4.index t a * S2x56x56x256.size a ≤ (i a).val
      ∧ (i a).val < win0_4.index t a * S2x56x56x256.size a + S2x56x56x256.size a := by
  show i ∈ ((View.whole main_v4).slice (win0_4.rect t)).set ↔ _
  rw [View.set_slice_whole, Rect.mem_set_unit]
  exact Iff.rfl

/-- Image `n` lies in block `n / 2`. -/
theorem cover (i : S64x56x56x256.Idx) :
    ∃ t : Fin cfg0.N, (cfg0.win 4).flush t = true ∧ i ∈ ((cfg0.win 4).blk t).view.set := by
  have hi0 : (i 0).val < 64 := (i 0).isLt
  have hi1 : (i 1).val < 56 := (i 1).isLt
  have hi2 : (i 2).val < 56 := (i 2).isLt
  have hi3 : (i 3).val < 256 := (i 3).isLt
  have hlt : (i 0).val / 2 < cfg0.N := by rw [show cfg0.N = 32 from N_0]; omega
  refine ⟨⟨(i 0).val / 2, hlt⟩, flush0_4 _, ?_⟩
  rw [mem_blk]
  obtain ⟨-, -, -, -, -, -, -, -, -, -, e0, e1, e2, e3⟩ := idx_facts ⟨(i 0).val / 2, hlt⟩
  have e0' : win0_4.index ⟨(i 0).val / 2, hlt⟩ (0 : Fin 4) = (i 0).val / 2 := e0
  intro a
  match a with
  | ⟨0, _⟩ =>
    show win0_4.index ⟨(i 0).val / 2, hlt⟩ (0 : Fin 4) * 2 ≤ (i 0).val ∧ (i 0).val < win0_4.index ⟨(i 0).val / 2, hlt⟩ (0 : Fin 4) * 2 + 2
    rw [e0']; omega
  | ⟨1, _⟩ =>
    show win0_4.index ⟨(i 0).val / 2, hlt⟩ (1 : Fin 4) * 56 ≤ (i 1).val ∧ (i 1).val < win0_4.index ⟨(i 0).val / 2, hlt⟩ (1 : Fin 4) * 56 + 56
    rw [e1]; omega
  | ⟨2, _⟩ =>
    show win0_4.index ⟨(i 0).val / 2, hlt⟩ (2 : Fin 4) * 56 ≤ (i 2).val ∧ (i 2).val < win0_4.index ⟨(i 0).val / 2, hlt⟩ (2 : Fin 4) * 56 + 56
    rw [e2]; omega
  | ⟨3, _⟩ =>
    show win0_4.index ⟨(i 0).val / 2, hlt⟩ (3 : Fin 4) * 256 ≤ (i 3).val ∧ (i 3).val < win0_4.index ⟨(i 0).val / 2, hlt⟩ (3 : Fin 4) * 256 + 256
    rw [e3]; omega

/-- THE REGION'S OUTPUT ARRAY after the run is `resultLast` of the argument arrays. -/
theorem final (c : Dev nD) : (dats m 0 c).arrAt 4 cfg0.N
    = resultLast (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-! ## The transpose after the region, and the run -/

/-- @main's result: the region's array with the channel axis moved back to second place. -/
theorem tail_eq (c : Dev nD) : Pipeline.afterTail₀ cfgs (dats m) 0 (V0 m) [hostOps1] c main_v5
    = result (m ((c : Thread nD τ).loc main_arg0)) (m ((c : Thread nD τ).loc main_arg1))
        (m ((c : Thread nD τ).loc main_arg2)) (m ((c : Thread nD τ).loc main_arg3)) := by
  unfold Pipeline.afterTail₀
  show StableHlo.after hostOps1 _ (Proc.devRef .tc main_v5) = _
  after_results
  have hw : (Pipeline.withArrays (cfgs 0).spec c (V0 m c) (fun w => (dats m 0 c).arrAt w (cfgs 0).N) (Proc.devRef .tc main_v4)
      : S64x56x56x256.Idx → EReal)
      = resultLast (m ((c : Thread nD τ).loc main_arg0)) (m ((c : Thread nD τ).loc main_arg1))
          (m ((c : Thread nD τ).loc main_arg2)) (m ((c : Thread nD τ).loc main_arg3)) :=
    (Pipeline.withArrays_arr spec0 launch0.win.arr_inj c _ _ 4).trans (final m c)
  rw [hw]
  funext i
  obtain ⟨n, k, h, w, rfl⟩ : ∃ (n : Fin 64) (k : Fin 256) (h w : Fin 56), i = ix4 n k h w := ⟨i 0, i 1, i 2, i 3, eq_ix4 i⟩
  rw [transpose_ix4_0312_apply]
  rfl

/-- THE KERNEL'S RUN, READ: every weakly fair execution ends with @main's result at `result` of the argument arrays,
    the arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.lean ====
/-
  The gated channel transformation: kernel against reference, on the extended reals.

  Both programs compute, for an input `x` of 64 images with 256 channels of 56 × 56 positions and per-channel parameters
  α, γ, β:   ss(n, c) = Σ_{h, w} x(n, c, h, w)²,   e(n, c) = sqrt (ss(n, c) + ε) · α(c),
  inv(n) = rsqrt ((Σ_c e(n, c)²) / 256 + ε),   gate(n, c) = 1 + tanh (e(n, c) · γ(c) · inv(n) + β(c)),
  and return x(n, c, h, w) · gate(n, c)   (`Cert.Gct.result`, Proof/Spec.lean).

  The reference does this on the whole arrays in (n, c, h, w) order. The kernel first moves the channel axis last, then
  works through the images two at a time — each grid point reads its two images, sums the squares over the two spatial
  axes (now the two middle axes), forms the gate of each of the two images from that image's own 256 sums, and writes the
  two gated images back — and finally moves the channel axis back. The two differ only in the ORDER in which the spatial
  positions are summed and in the layout; with exact arithmetic a finite sum does not depend on its order (addition on the
  extended reals is commutative and associative, infinities included), so no finiteness of the inputs is used. The same
  three float words (ε, 256, 1) appear on both sides and are never evaluated; only the zero a sum starts from is.

  Proof/RefValue.lean reads the reference's stages at an index and arrives at `result`; Proof/KernelPayload.lean reads the
  kernel body's arithmetic on a block at an index; Proof/KernelValue.lean goes from the blocks to the whole array and
  through the final transpose, and states the kernel's run. Here the two runs are put side by side.
-/
import proofs.«115210_g25056839205320_feedfinal_431_7_alg».proof.Defs
import proofs.«115210_g25056839205320_feedfinal_431_7_alg».proof.Proof.Gen.Kernel
import proofs.«115210_g25056839205320_feedfinal_431_7_alg».proof.Proof.Gen.Kernel.Skeleton
import proofs.«115210_g25056839205320_feedfinal_431_7_alg».proof.Proof.Gen.Kernel.Launch
import proofs.«115210_g25056839205320_feedfinal_431_7_alg».proof.Proof.Gen.Kernel.Points
import proofs.«115210_g25056839205320_feedfinal_431_7_alg».proof.Proof.Gen.Kernel.Frame
import proofs.«115210_g25056839205320_feedfinal_431_7_alg».proof.Proof.Gen.KernelIdeal
import proofs.«115210_g25056839205320_feedfinal_431_7_alg».proof.Proof.Gen.KernelIdeal.Skeleton
import proofs.«115210_g25056839205320_feedfinal_431_7_alg».proof.Proof.Gen.KernelIdeal.Launch
import proofs.«115210_g25056839205320_feedfinal_431_7_alg».proof.Proof.Gen.KernelIdeal.Points
import proofs.«115210_g25056839205320_feedfinal_431_7_alg».proof.Proof.Gen.KernelIdeal.Frame
import proofs.«115210_g25056839205320_feedfinal_431_7_alg».proof.Proof.Gen.ReferenceIdeal
import proofs.«115210_g25056839205320_feedfinal_431_7_alg».proof.Proof.Gen.ReferenceIdeal.Run
import proofs.«115210_g25056839205320_feedfinal_431_7_alg».proof.Proof.Gen.ReferenceIdeal.Read
import proofs.«115210_g25056839205320_feedfinal_431_7_alg».proof.Proof.Gen.Pre_finite_inputs
import proofs.«115210_g25056839205320_feedfinal_431_7_alg».proof.Proof.RefValue
import proofs.«115210_g25056839205320_feedfinal_431_7_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, with what it computes dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result at `result` of those arguments: the
    kernel by its run read block by block, the reference by its stages read at an index. -/
theorem algebraic : Cert.algebraic_KernelIdeal_ReferenceIdeal := by
  intro m ρ m' ρ' _ hagree
  refine ⟨fun c => Cert.Gct.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v29_eq _ _ _ _).trans (Cert.ReferenceIdeal.RefValue.ref_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
